-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg4
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S100000x8 : Shape := ⟨2, ![100000, 8]⟩
abbrev S10000x8 : Shape := ⟨2, ![10000, 8]⟩
abbrev S1x128 : Shape := ⟨2, ![1, 128]⟩
abbrev S1700000x8 : Shape := ⟨2, ![1700000, 8]⟩
abbrev S1x8 : Shape := ⟨2, ![1, 8]⟩

abbrev nBuf : Space → Nat
  | .hbm => 79
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S100000x8, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x8, .f32⟩
  | .hbm, ⟨69, _⟩ => ⟨S1700000x1, .f32⟩
  | .hbm, ⟨70, _⟩ => ⟨S1700000x8, .f32⟩
  | .hbm, ⟨71, _⟩ => ⟨S1700000x8, .f32⟩
  | .hbm, ⟨72, _⟩ => ⟨S_, .f32⟩
  | .hbm, ⟨73, _⟩ => ⟨S100000x8, .f32⟩
  | .hbm, ⟨74, _⟩ => ⟨S1700000x1, .i32⟩
  | .hbm, ⟨75, _⟩ => ⟨S100000x8, .f32⟩
  | .hbm, ⟨76, _⟩ => ⟨S1x8, .f32⟩
  | .hbm, ⟨77, _⟩ => ⟨S100000x8, .f32⟩
  | .hbm, ⟨78, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S128x8, .f32⟩
  | .local _ .vmem, ⟨9, _⟩ => ⟨S10000x8, .f32⟩
  | .local _ .vmem, ⟨10, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x8_S128x8_0_0 : ∀ a, (![0, 0] : Fin 2 → Nat) a + S128x8.size a ≤ S128x8.size a
  h_S128x8 : 0 < S128x8.numel
  inb_S10000x8_S10000x8_0_0 : ∀ a, (![0, 0] : Fin 2 → Nat) a + S10000x8.size a ≤ S10000x8.size a
  h_S10000x8 : 0 < S10000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x8_S10000x8_1_0_0_1_n_n_wf : DotDims.WF S10000x128 S128x8 S10000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S100000x8.size a
  hwx1_3 : ∀ i : grid1.Coords, EltTy.bits .f32 = 32 ∨ (Rect.block (s := S100000x8) S10000x8.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x8, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x8, .f32⟩
  | .hbm, ⟨107, _⟩ => ⟨S1700000x1, .f32⟩
  | .hbm, ⟨108, _⟩ => ⟨S1700000x8, .f32⟩
  | .hbm, ⟨109, _⟩ => ⟨S1700000x8, .f32⟩
  | .hbm, ⟨110, _⟩ => ⟨S_, .f32⟩
  | .hbm, ⟨111, _⟩ => ⟨S100000x8, .f32⟩
  | .hbm, ⟨112, _⟩ => ⟨S1700000x1, .i32⟩
  | .hbm, ⟨113, _⟩ => ⟨S100000x8, .f32⟩
  | .hbm, ⟨114, _⟩ => ⟨S1x8, .f32⟩
  | .hbm, ⟨115, _⟩ => ⟨S100000x8, .f32⟩
  | .hbm, ⟨116, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.WholeRun.lean ====
/-
  The idealized kernel's whole run, with its result named.

  The program is five stretches: host operations, the first dense layer as a pipelined region, host operations
  (gather, scale, scatter-add), the second dense layer as a pipelined region, host operations again. The contents of
  every buffer at the boundaries between stretches are a fold from the launch memory: a host stretch applies its
  operations, a region leaves each of its arrays at what its write-backs produce and every other buffer alone. This
  module states that every weakly fair execution terminates with the result buffer holding what that fold gives at the
  last boundary, and with the six argument arrays unchanged. What the fold evaluates to is read in the other modules.
-/
import proofs.«130047_j15668040696096_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory has to satisfy on core `c`: every unscoped buffer holds the last boundary's contents. -/
abbrev EndsAt (c : Dev nD) (s : MemSt nD τ sig (Elt F)) : Prop :=
  ∀ b ∈ Pipeline.ucRefs τ sig, s.mem (((c : Thread nD τ)).1, b) = W5 m ρ c b

set_option backward.isDefEq.respectTransparency.types false in
/-- Every weakly fair execution of the program terminates without a fault; the result buffer then holds the last
    boundary's contents at that buffer, and each argument array what it held at launch. The five stretches run in
    order, each from the thread state the one before leaves; the last thread state owns every unscoped buffer at the
    last boundary's contents, so each buffer's final contents are read off it — the result's as that fold, an
    argument's walked back through the fold to the launch memory. -/
theorem run_result : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  -- the two regions are distinct pipelines
  have hdistinct : (Pipeline.Seg.pipes (segs m ρ)).Nodup := by
    simp only [segs, Pipeline.Seg.pipes_host, Pipeline.Seg.pipes_region, Pipeline.Seg.pipes_nil]; decide
  -- each stretch starts from exactly the thread state the stretch before it ends in; after the last one the core owes nothing
  have hchain : Pipeline.Seg.Chains
      (fun c => iprop(StableHlo.held (c : Thread nD τ) (Pipeline.ucRefs τ sig) (W0 m ρ c) ∗ R c)) (segs m ρ)
      fun c => iprop(Tₙ m ρ c ∗ ∃ W, owes (c.tc : Thread nD τ) (0 : CellTallies nD τ sig Unit) W) :=
    ⟨fun _ => .rfl, fun _ => .rfl, fun _ => .rfl, fun _ => .rfl, fun _ => .rfl, fun c => by
      dsimp only [Pipeline.Seg.post, hseg, Pipeline.HostSeg.ofOps]
      iintro ⟨Hbufs, Hreg, Howes⟩
      isplitl [Hbufs Hreg]
      · isplitl [Hbufs]; · iexact Hbufs
        iexact Hreg
      iexact Howes⟩
  -- the last thread state, held beside the machine's state, pins every unscoped buffer's final contents
  have hread : ∀ c (s' : Phys nD τ sig (Elt F)), iprop(Tₙ m ρ c ∗ SI s') ⊢ |={Set.univ}=> iprop(⌜EndsAt m ρ c s'.mem⌝ ∗ SI s') :=
    fun c s' => by
      iintro ⟨⟨Hbufs, -⟩, Hstate⟩
      unfold StableHlo.held
      imodintro
      iapply (pointsTo_read_all (Pipeline.ucRefs τ sig) (fun b => (((c : Thread nD τ)).1, b)) (W5 m ρ c) s')
      isplitl [Hbufs] <;> iassumption
  refine Pipeline.θ_run_regions_kit (pcfgs (F := F)) adm (pdats m ρ) () cellOf_inj emb₁ defs₀ 𝒱₀ L lv m ρ main (segs m ρ)
    (fun c Q => by rw [main_run m ρ c]) hdistinct (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := hchain) (hinit := ?_) (QY := EndsAt m ρ) (hfin := hread) (hQ := fun s h c => ?_)
  · -- the launch's ghost element is the pipelines' staging-cell resources; no core needs anything more
    iintro Hlaunch; imodintro
    isplitl [Hlaunch]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hlaunch
    iapply (show (BI.emp : sProp 𝕄) ⊢ bigSep Finset.univ (fun _ : Dev nD => (BI.emp : sProp 𝕄)) from by rw [BI.bigSep_emp_const])
    iempintro
  · -- the first thread state: what the launch deals each core is its unscoped buffers at the launch memory, its
    -- generator register, and owing nothing
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howes, -, Hreg, -⟩, -⟩
    imodintro
    isplitl [Hbufs]; · iexact Hbufs
    isplitl [Hreg]; · iexists _; iexact Hreg
    iexists ∅; iexact Howes
  · -- the result is the fold's value at its buffer; an argument's value there is its launch contents
    exact ⟨h c _ (mem_uc main_v59 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩

end Cert.KernelIdeal.WholeRun

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.DenseLayers.lean ====
/-
  The two dense layers, each a pipelined region over ten row tiles of 10000 nodes.

  At the ideal values a change of float format is the identity, so the first region's tile body is the plain product of
  a [10000, 128] tile of node features with the whole [128, 128] weight matrix, and the second region's is the product
  of max(tile + bias row, 0) with the whole [128, 8] weight matrix. Point `t` of either grid reads rows
  10000·t … 10000·t + 9999 of its input array and writes the same rows of its output array; the ten tiles cover all
  100000 rows. So whatever the arrays hold when a region is entered, its output array ends as ONE function of them,
  entry by entry: `product X W (r, j) = Σ_k X(r, k) · W(k, j)` for the first, and
  `hidden A b W (r, j) = Σ_k max(A(r, k) + b(k), 0) · W(k, j)` for the second.
-/
import proofs.«130047_j15668040696096_1_alg».proof.Proof.Gen.KernelIdeal.Frame
import proofs.«130047_j15668040696096_1_alg».proof.Proof.LibPlainProduct
import proofs.«130047_j15668040696096_1_alg».proof.Proof.LibBroadcastTo
import proofs.«130047_j15668040696096_1_alg».proof.Proof.LibLayoutReads
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseLayers

open Cert.KernelIdeal Cert.KernelIdeal.Gen Idealize.ShloMosaic Idealize.ShloMosaic.TcCoe Idealize.SL.Sem
open Idealize.ShloMosaic.ValueIdx
open Idealize.ShloMosaic.Pipeline (Dat)

/-! ## The two layers as functions of whole arrays -/

/-- The plain product of the node features with the first weight matrix. -/
def product (X : FVec Ideal S100000x128 .f32) (W : FVec Ideal S128x128 .f32) : FVec Ideal S100000x128 .f32 :=
  fun i => ∑ k : Fin 128, X (ix2 (⟨(i 0).val, (i 0).isLt⟩ : Fin 100000) k) * W (ix2 k (⟨(i 1).val, (i 1).isLt⟩ : Fin 128))

/-- The second layer's dense part: add the bias along each row, clamp below at the zero word, multiply by the second
    weight matrix. -/
def hidden (A : FVec Ideal S100000x128 .f32) (b : FVec Ideal S128 .f32) (W : FVec Ideal S128x8 .f32) : FVec Ideal S100000x8 .f32 :=
  fun i => ∑ k : Fin 128, max (A (ix2 (⟨(i 0).val, (i 0).isLt⟩ : Fin 100000) k) + b (ix1 k)) (Ideal.ofBits .f32 0x00000000#32)
    * W (ix2 k (⟨(i 1).val, (i 1).isLt⟩ : Fin 8))

theorem origin2 : (![0, 0] : Fin 2 → Nat) = fun _ => 0 := funext fun a => by fin_cases a <;> rfl
theorem origin1 : (![0] : Fin 1 → Nat) = fun _ => 0 := funext fun a => by fin_cases a; rfl

/-! ## One tile's body, entry by entry -/

/-- The first region's tile body at entry `(a, j)`: the row of the tile against the column of the weights. -/
theorem tile_product (x : Vec Ideal S10000x128 .f32) (w : Vec Ideal S128x128 .f32) (a : Fin 10000) (j : Fin 128) :
    k0_pay1 x w (ix2 a j) = ∑ k : Fin 128, x (ix2 a k) * w (ix2 k j) := by
  unfold k0_pay1
  exact PlainProduct.matmul_zero_apply dot_S10000x128_S128x128_S10000x128_1_0_0_1_n_n_wf none x w a j

/-- The second region's tile body at entry `(a, j)`: the bias is a row broadcast down the tile, the clamp is pointwise. -/
theorem tile_hidden (x : Vec Ideal S10000x128 .f32) (b : Vec Ideal S128 .f32) (w : Vec Ideal S128x8 .f32) (a : Fin 10000) (j : Fin 8) :
    k1_pay1 x b w (ix2 a j) = ∑ k : Fin 128, max (x (ix2 a k) + b (ix1 k)) (Ideal.ofBits .f32 0x00000000#32) * w (ix2 k j) := by
  unfold k1_pay1
  refine (PlainProduct.matmul_zero_apply dot_S10000x128_S128x8_S10000x8_1_0_0_1_n_n_wf none _ _ a j).trans ?_
  refine Finset.sum_congr rfl fun k _ => ?_
  refine congrArg (· * w (ix2 k j)) ?_
  show max (shapeCast S10000x128 x shapeCasts_S10000x128_S10000x128 (ix2 a k)
      + broadcastTo S10000x128 (shapeCast S1x128 b shapeCasts_S128_S1x128) broadcasts_S1x128_S10000x128 (ix2 a k)) (Ideal.ofBits .f32 0x00000000#32) = _
  rw [shapeCast_self, Cert.BroadcastTo.row_apply, Cert.LayoutReads.row_of_vec_apply]

/-- A tile's entry against the whole-array product: when the tile's rows are rows `r·10000 …` of `X` and the weights are `W`. -/
theorem tile_is_product (X : FVec Ideal S100000x128 .f32) (W : FVec Ideal S128x128 .f32)
    (x : Vec Ideal S10000x128 .f32) (w : Vec Ideal S128x128 .f32) (y : S10000x128.Idx) (i : S100000x128.Idx) (r : Nat)
    (h0 : (i 0).val = r * 10000 + (y 0).val) (h1 : (i 1).val = (y 1).val)
    (hx : ∀ (z : S10000x128.Idx) (i' : S100000x128.Idx), (i' 0).val = r * 10000 + (z 0).val → (i' 1).val = (z 1).val → x z = X i')
    (hw : ∀ z : S128x128.Idx, w z = W z) :
    k0_pay1 x w y = product X W i := by
  obtain ⟨a, j, rfl⟩ : ∃ (a : Fin 10000) (j : Fin 128), y = ix2 a j := ⟨y 0, y 1, eq_ix2 y⟩
  rw [tile_product]
  unfold product
  refine Finset.sum_congr rfl fun k _ => ?_
  rw [hx (ix2 a k) (ix2 (⟨(i 0).val, (i 0).isLt⟩ : Fin 100000) k) h0 rfl, hw]
  refine congrArg (X _ * W ·) (funext fun ax => Fin.ext ?_)
  match ax with
  | ⟨0, _⟩ => rfl
  | ⟨1, _⟩ => exact h1.symm

/-- The same for the second layer. -/
theorem tile_is_hidden (A : FVec Ideal S100000x128 .f32) (B : FVec Ideal S128 .f32) (W : FVec Ideal S128x8 .f32)
    (x : Vec Ideal S10000x128 .f32) (b : Vec Ideal S128 .f32) (w : Vec Ideal S128x8 .f32) (y : S10000x8.Idx) (i : S100000x8.Idx) (r : Nat)
    (h0 : (i 0).val = r * 10000 + (y 0).val) (h1 : (i 1).val = (y 1).val)
    (hx : ∀ (z : S10000x128.Idx) (i' : S100000x128.Idx), (i' 0).val = r * 10000 + (z 0).val → (i' 1).val = (z 1).val → x z = A i')
    (hb : ∀ z : S128.Idx, b z = B z) (hw : ∀ z : S128x8.Idx, w z = W z) :
    k1_pay1 x b w y = hidden A B W i := by
  obtain ⟨a, j, rfl⟩ : ∃ (a : Fin 10000) (j : Fin 8), y = ix2 a j := ⟨y 0, y 1, eq_ix2 y⟩
  rw [tile_hidden]
  unfold hidden
  refine Finset.sum_congr rfl fun k _ => ?_
  rw [hx (ix2 a k) (ix2 (⟨(i 0).val, (i 0).isLt⟩ : Fin 100000) k) h0 rfl, hb, hw]
  refine congrArg (max (A _ + B _) _ * W ·) (funext fun ax => Fin.ext ?_)
  match ax with
  | ⟨0, _⟩ => rfl
  | ⟨1, _⟩ => exact h1.symm

/-! ## Where the tiles sit -/

/-- First region: at point `t` the features' tile and the output's tile are row tile `t`, the weights' block is the whole matrix. -/
theorem tile_positions0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Second region: the same, with the bias vector and the weights whole at every point. -/
theorem tile_positions1 : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row tile is some point's. -/
theorem tile_onto0 : ∀ q : Fin 10, ∃ t : Fin cfg0.N, t.val = q.val :=
  (by decide +kernel : ∀ q : Fin 10, ∃ t : Fin grid0.N, t.val = q.val)
theorem tile_onto1 : ∀ q : Fin 10, ∃ t : Fin cfg1.N, t.val = q.val :=
  (by decide +kernel : ∀ q : Fin 10, ∃ t : Fin grid1.N, t.val = q.val)

variable (V : (c : Dev nD) → (b : Ref sig .tc) → Buf (Elt Ideal) ((c : Thread nD τ).loc b))

/-! ## The first region's output array -/

/-- What point `t` writes back is rows `10000·t …` of the product of the arrays as the region finds them. -/
theorem written0 (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e00, e01, e10, e11, e20, e21⟩ := tile_positions0 t
  funext y
  show k0_pay1 (iblk0 V c 0 t) (iblk0 V c 1 t) y = product (V c main_arg0) (V c main_arg2) (((cfg0.win 2).blk t).view.emb y)
  refine tile_is_product (V c main_arg0) (V c main_arg2) _ _ y _ t.val ?_ ?_ ?_ ?_
  · show win0_2.index t (0 : Fin 2) * 10000 + 1 * (y 0).val = _; omega
  · show win0_2.index t (1 : Fin 2) * 128 + 1 * (y 1).val = _; omega
  · intro z i' hz0 hz1
    show V c main_arg0 (((cfg0.win 0).blk t).view.emb z) = V c main_arg0 i'
    refine congrArg _ (funext fun ax => Fin.ext ?_)
    match ax with
    | ⟨0, _⟩ => show win0_0.index t (0 : Fin 2) * 10000 + 1 * (z 0).val = (i' 0).val; omega
    | ⟨1, _⟩ => show win0_0.index t (1 : Fin 2) * 128 + 1 * (z 1).val = (i' 1).val; omega
  · intro z
    show V c main_arg2 (((cfg0.win 1).blk t).view.emb z) = V c main_arg2 z
    refine congrArg _ (funext fun ax => Fin.ext ?_)
    match ax with
    | ⟨0, _⟩ => show win0_1.index t (0 : Fin 2) * 128 + 1 * (z 0).val = (z 0).val; omega
    | ⟨1, _⟩ => show win0_1.index t (1 : Fin 2) * 128 + 1 * (z 1).val = (z 1).val; omega

/-- An index of the output array is in point `t`'s tile iff each coordinate is in the tile's range. -/
theorem in_tile0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- The ten row tiles cover the output array: row `r` is in tile `r / 10000`. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tile_onto0 ⟨(i 0).val / 10000, by omega⟩
  have ht' : t.val = (i 0).val / 10000 := ht
  obtain ⟨e00, e01, e10, e11, e20, e21⟩ := tile_positions0 t
  refine ⟨t, flush0_2 t, ?_⟩
  rw [in_tile0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the first region its output array is the product of the two arrays it read. -/
theorem first_layer (c : Dev nD) : (dat0 V c).arrAt 2 cfg0.N = product (V c main_arg0) (V c main_arg2) :=
  (dat0 V c).arrAt_eq_of_cover 2 (product (V c main_arg0) (V c main_arg2)) (fun t _ => written0 V c t) covered0

/-! ## The second region's output array -/

/-- What point `t` writes back is rows `10000·t …` of the second layer's dense part of the arrays as the region finds them. -/
theorem written1 (c : Dev nD) (t : Fin cfg1.N) :
    (dat1 V c).flushed 3 t = ((cfg1.win 3).blk t).view.read (Elt Ideal) (hidden (V c main_v42) (V c main_arg3) (V c main_arg4)) := by
  show (cfg1.win 3).cut (grid1.coords t) ((dat1 V c).after 3 t) = _
  rw [after1_3]
  unfold out1_3
  rw [View.canon_unit_zero origin2]
  simp only [View.ld_unit_zero (S := S10000x128) origin2, View.ld_unit_zero (S := S128) origin1, View.ld_unit_zero (S := S128x8) origin2]
  obtain ⟨e00, e01, e10, e20, e21, e30, e31⟩ := tile_positions1 t
  funext y
  show k1_pay1 (iblk1 V c 0 t) (iblk1 V c 1 t) (iblk1 V c 2 t) y = hidden (V c main_v42) (V c main_arg3) (V c main_arg4) (((cfg1.win 3).blk t).view.emb y)
  refine tile_is_hidden (V c main_v42) (V c main_arg3) (V c main_arg4) _ _ _ y _ t.val ?_ ?_ ?_ ?_ ?_
  · show win1_3.index t (0 : Fin 2) * 10000 + 1 * (y 0).val = _; omega
  · show win1_3.index t (1 : Fin 2) * 8 + 1 * (y 1).val = _; omega
  · intro z i' hz0 hz1
    show V c main_v42 (((cfg1.win 0).blk t).view.emb z) = V c main_v42 i'
    refine congrArg _ (funext fun ax => Fin.ext ?_)
    match ax with
    | ⟨0, _⟩ => show win1_0.index t (0 : Fin 2) * 10000 + 1 * (z 0).val = (i' 0).val; omega
    | ⟨1, _⟩ => show win1_0.index t (1 : Fin 2) * 128 + 1 * (z 1).val = (i' 1).val; omega
  · intro z
    show V c main_arg3 (((cfg1.win 1).blk t).view.emb z) = V c main_arg3 z
    refine congrArg _ (funext fun ax => Fin.ext ?_)
    match ax with
    | ⟨0, _⟩ => show win1_1.index t (0 : Fin 1) * 128 + 1 * (z 0).val = (z 0).val; omega
  · intro z
    show V c main_arg4 (((cfg1.win 2).blk t).view.emb z) = V c main_arg4 z
    refine congrArg _ (funext fun ax => Fin.ext ?_)
    match ax with
    | ⟨0, _⟩ => show win1_2.index t (0 : Fin 2) * 128 + 1 * (z 0).val = (z 0).val; omega
    | ⟨1, _⟩ => show win1_2.index t (1 : Fin 2) * 8 + 1 * (z 1).val = (z 1).val; omega

theorem in_tile1 (t : Fin cfg1.N) (i : S100000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v43).slice (win1_3.rect t)).set ↔ _
  rw [View.set_slice_whole, Rect.mem_set_unit]
  exact Iff.rfl

theorem covered1 (i : S100000x8.Idx) : ∃ t : Fin cfg1.N, (cfg1.win 3).flush t = true ∧ i ∈ ((cfg1.win 3).blk t).view.set := by
  have hi0 : (i 0).val < 100000 := (i 0).isLt
  have hi1 : (i 1).val < 8 := (i 1).isLt
  obtain ⟨t, ht⟩ := tile_onto1 ⟨(i 0).val / 10000, by omega⟩
  have ht' : t.val = (i 0).val / 10000 := ht
  obtain ⟨e00, e01, e10, e20, e21, e30, e31⟩ := tile_positions1 t
  refine ⟨t, flush1_3 t, ?_⟩
  rw [in_tile1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 8 ≤ (i 1).val ∧ (i 1).val < win1_3.index t (1 : Fin 2) * 8 + 8; omega

/-- After the second region its output array is the second layer's dense part of the three arrays it read. -/
theorem second_layer (c : Dev nD) : (dat1 V c).arrAt 3 cfg1.N = hidden (V c main_v42) (V c main_arg3) (V c main_arg4) :=
  (dat1 V c).arrAt_eq_of_cover 3 (hidden (V c main_v42) (V c main_arg3) (V c main_arg4)) (fun t _ => written1 V c t) covered1

end Cert.KernelIdeal.DenseLayers

end
-- ==== Proof.HostStretches.lean ====
/-
  The host operations around the two dense layers, as functions of whole arrays.

  The graph has 1600000 directed edges; every node also gets a self-loop, so the lists of sources and destinations
  have 1700000 entries. A node's degree counts the entries whose destination it is; an edge's weight is
  deg(source)^(-1/2) · deg(destination)^(-1/2), with degrees clamped below at one. One round of message passing gathers
  the rows of a node-feature matrix at the sources, scales each gathered row by its edge's weight, and adds the scaled
  rows into the rows named by the destinations. The program does this with 128 feature columns after the first dense
  layer and with 8 after the second, and then adds the last bias along each row.

  These definitions spell those steps exactly as the program's host operations do (the same gathers, scatter-adds,
  broadcasts and the same guard that adds the node count to a negative node id), for any float values. The lemmas
  below read the buffers at the boundaries between the program's five stretches: what the first stretch leaves in the
  edge lists and the edge weights, that the later stretches and the regions leave those and the argument arrays alone,
  and that the second and third stretches compute one round of message passing each.
-/
import proofs.«130047_j15668040696096_1_alg».proof.Proof.Gen.KernelIdeal.Frame
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo

variable {F : FTy → Type} [FloatOps F]

/-! ## The steps as functions -/

/-- Row `r` of the edge array followed by the node ids 0 … 99999 (the self-loops). -/
def sources (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

def destinations (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node id has the node count added before it indexes a gather. -/
def guarded (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- deg^(-1/2) per node: count the destinations, clamp below at one, reciprocal square root. -/
def invSqrtDegree (d : (⟨S1700000, .i32⟩ : BufTy).Contents (Elt F)) : (⟨S100000, .f32⟩ : BufTy).Contents (Elt F) :=
  Host.rsqrt (maximumf
    (Host.scatterAdd scatter_S100000_S1700000x1_S1700000_n_0_0_1 (broadcastInDim S100000 ![] bcast_S_S100000 (constant S_ .f32 0x00000000#32))
      (broadcastInDim S1700000x1 ![0] bcast_S1700000_S1700000x1_0 d) (broadcastInDim S1700000 ![] bcast_S_S1700000 (constant S_ .f32 0x3F800000#32)))
    (broadcastInDim S100000 ![] bcast_S_S100000 (constant S_ .f32 0x3F800000#32)))

/-- An edge's weight: the product of deg^(-1/2) at its two ends. -/
def edgeWeights (s d : (⟨S1700000, .i32⟩ : BufTy).Contents (Elt F)) : (⟨S1700000, .f32⟩ : BufTy).Contents (Elt F) :=
  mulf (Host.gather gather_S100000_S1700000x1_S1700000_n_0_n_n_0_1_1 (invSqrtDegree d) (broadcastInDim S1700000x1 ![0] bcast_S1700000_S1700000x1_0 (guarded s)))
    (Host.gather gather_S100000_S1700000x1_S1700000_n_0_n_n_0_1_1 (invSqrtDegree d) (broadcastInDim S1700000x1 ![0] bcast_S1700000_S1700000x1_0 (guarded d)))

/-- One round of message passing over 128 feature columns. -/
def propagate128 (s d : (⟨S1700000, .i32⟩ : BufTy).Contents (Elt F)) (wgt : (⟨S1700000, .f32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (broadcastInDim S1700000x1 ![0] bcast_S1700000_S1700000x1_0 (guarded s)))
      (broadcastInDim S1700000x128 ![0, 1] bcast_S1700000x1_S1700000x128_0_1 (broadcastInDim S1700000x1 ![0] bcast_S1700000_S1700000x1_0 wgt)))

/-- One round over 8 feature columns, then the bias added along each row. -/
def propagate8 (s d : (⟨S1700000, .i32⟩ : BufTy).Contents (Elt F)) (wgt : (⟨S1700000, .f32⟩ : BufTy).Contents (Elt F)) (h : (⟨S100000x8, .f32⟩ : BufTy).Contents (Elt F)) (b : (⟨S8, .f32⟩ : BufTy).Contents (Elt F)) : (⟨S100000x8, .f32⟩ : BufTy).Contents (Elt F) :=
  addf
    (Host.scatterAdd scatter_S100000x8_S1700000x1_S1700000x8_1_0_0_1 (broadcastInDim S100000x8 ![] bcast_S_S100000x8 (constant S_ .f32 0x00000000#32))
      (broadcastInDim S1700000x1 ![0] bcast_S1700000_S1700000x1_0 d)
      (mulf (Host.gather gather_S100000x8_S1700000x1_S1700000x8_1_0_n_n_0_1_18 h (broadcastInDim S1700000x1 ![0] bcast_S1700000_S1700000x1_0 (guarded s)))
        (broadcastInDim S1700000x8 ![0, 1] bcast_S1700000x1_S1700000x8_0_1 (broadcastInDim S1700000x1 ![0] bcast_S1700000_S1700000x1_0 wgt))))
    (broadcastInDim S100000x8 ![0, 1] bcast_S1x8_S100000x8_0_1 (broadcastInDim S1x8 ![1] bcast_S8_S1x8_1 b))

variable (m : (ℓ : Loc nD τ sig) → Buf (Elt F) ℓ) (ρ : Dev nD → PrngReg)

/-! ## After the first stretch -/

theorem sources_at1 (c : Dev nD) : W1 m ρ c (Proc.devRef .tc main_v5) = sources (m ((c : Thread nD τ).loc main_arg1)) := by
  show StableHlo.after hostOps0 (W0 m ρ c) (Proc.devRef .tc main_v5) = _
  after_results_simp
  rfl

theorem destinations_at1 (c : Dev nD) : W1 m ρ c (Proc.devRef .tc main_v6) = destinations (m ((c : Thread nD τ).loc main_arg1)) := by
  show StableHlo.after hostOps0 (W0 m ρ c) (Proc.devRef .tc main_v6) = _
  after_results_simp
  rfl

theorem weights_at1 (c : Dev nD) : W1 m ρ c (Proc.devRef .tc main_v28)
    = edgeWeights (sources (m ((c : Thread nD τ).loc main_arg1))) (destinations (m ((c : Thread nD τ).loc main_arg1))) := by
  show StableHlo.after hostOps0 (W0 m ρ c) (Proc.devRef .tc main_v28) = _
  after_results_simp
  rfl

/-- The first stretch writes no argument array. -/
theorem arg_at1 (c : Dev nD) (b : Ref sig .tc) (hb : b = main_arg0 ∨ b = main_arg2 ∨ b = main_arg3 ∨ b = main_arg4 ∨ b = main_arg5) :
    W1 m ρ c (Proc.devRef .tc b) = m ((c : Thread nD τ).loc b) := by
  show StableHlo.after hostOps0 (W0 m ρ c) (Proc.devRef .tc b) = _
  rcases hb with rfl | rfl | rfl | rfl | rfl <;> (after_results_simp <;> rfl)

/-! ## The second stretch: one round of message passing over the first layer's output -/

theorem propagated_at3 (c : Dev nD) : W3 m ρ c (Proc.devRef .tc main_v42)
    = propagate128 (W2 m ρ c (Proc.devRef .tc main_v5)) (W2 m ρ c (Proc.devRef .tc main_v6)) (W2 m ρ c (Proc.devRef .tc main_v28))
        (W2 m ρ c (Proc.devRef .tc main_v29)) := by
  show StableHlo.after hostOps1 (W2 m ρ c) (Proc.devRef .tc main_v42) = _
  after_results_simp
  rfl

/-- The second stretch writes neither the edge lists, nor the edge weights, nor an argument array. -/
theorem kept_at3 (c : Dev nD) (b : Ref sig .tc)
    (hb : b = main_v5 ∨ b = main_v6 ∨ b = main_v28 ∨ b = main_arg3 ∨ b = main_arg4 ∨ b = main_arg5) :
    W3 m ρ c (Proc.devRef .tc b) = W2 m ρ c (Proc.devRef .tc b) := by
  show StableHlo.after hostOps1 (W2 m ρ c) (Proc.devRef .tc b) = _
  rcases hb with rfl | rfl | rfl | rfl | rfl | rfl <;> (after_results_simp <;> rfl)

/-! ## The third stretch: one round over the second layer's output, and the last bias -/

theorem result_at5 (c : Dev nD) : W5 m ρ c (Proc.devRef .tc main_v59)
    = propagate8 (W4 m ρ c (Proc.devRef .tc main_v5)) (W4 m ρ c (Proc.devRef .tc main_v6)) (W4 m ρ c (Proc.devRef .tc main_v28))
        (W4 m ρ c (Proc.devRef .tc main_v43)) (W4 m ρ c (Proc.devRef .tc main_arg5)) := by
  show StableHlo.after hostOps2 (W4 m ρ c) (Proc.devRef .tc main_v59) = _
  after_results_simp
  rfl

/-! ## Across the regions: a region changes only its own output array -/

/-- The first region reads the features and the first weights and writes its output; everything else stays. -/
theorem kept_at2 (c : Dev nD) (b : Ref sig .tc)
    (hb : b = main_v5 ∨ b = main_v6 ∨ b = main_v28 ∨ b = main_arg3 ∨ b = main_arg4 ∨ b = main_arg5) :
    W2 m ρ c (Proc.devRef .tc b) = W1 m ρ c (Proc.devRef .tc b) := by
  rcases hb with rfl | rfl | rfl | rfl | rfl | rfl <;> exact W2_of_ne m ρ c _ (by decide)

/-- The second region reads the propagated features, the first bias and the second weights and writes its output. -/
theorem kept_at4 (c : Dev nD) (b : Ref sig .tc)
    (hb : b = main_v5 ∨ b = main_v6 ∨ b = main_v28 ∨ b = main_arg5) :
    W4 m ρ c (Proc.devRef .tc b) = W3 m ρ c (Proc.devRef .tc b) := by
  rcases hb with rfl | rfl | rfl | rfl <;> exact W4_of_ne m ρ c _ (by decide)

/-- So the edge lists, the edge weights and the last bias reach every later boundary as the first stretch left them. -/
theorem sources_later (c : Dev nD) :
    W2 m ρ c (Proc.devRef .tc main_v5) = sources (m ((c : Thread nD τ).loc main_arg1))
    ∧ W4 m ρ c (Proc.devRef .tc main_v5) = sources (m ((c : Thread nD τ).loc main_arg1)) := by
  have h2 := (kept_at2 m ρ c main_v5 (.inl rfl)).trans (sources_at1 m ρ c)
  exact ⟨h2, (kept_at4 m ρ c main_v5 (.inl rfl)).trans ((kept_at3 m ρ c main_v5 (.inl rfl)).trans h2)⟩

theorem destinations_later (c : Dev nD) :
    W2 m ρ c (Proc.devRef .tc main_v6) = destinations (m ((c : Thread nD τ).loc main_arg1))
    ∧ W4 m ρ c (Proc.devRef .tc main_v6) = destinations (m ((c : Thread nD τ).loc main_arg1)) := by
  have h2 := (kept_at2 m ρ c main_v6 (.inr (.inl rfl))).trans (destinations_at1 m ρ c)
  exact ⟨h2, (kept_at4 m ρ c main_v6 (.inr (.inl rfl))).trans ((kept_at3 m ρ c main_v6 (.inr (.inl rfl))).trans h2)⟩

theorem weights_later (c : Dev nD) :
    W2 m ρ c (Proc.devRef .tc main_v28)
      = edgeWeights (sources (m ((c : Thread nD τ).loc main_arg1))) (destinations (m ((c : Thread nD τ).loc main_arg1)))
    ∧ W4 m ρ c (Proc.devRef .tc main_v28)
      = edgeWeights (sources (m ((c : Thread nD τ).loc main_arg1))) (destinations (m ((c : Thread nD τ).loc main_arg1))) := by
  have h2 := (kept_at2 m ρ c main_v28 (.inr (.inr (.inl rfl)))).trans (weights_at1 m ρ c)
  exact ⟨h2, (kept_at4 m ρ c main_v28 (.inr (.inr (.inl rfl)))).trans ((kept_at3 m ρ c main_v28 (.inr (.inr (.inl rfl)))).trans h2)⟩

/-- The first bias and the second weights as the second region finds them, and the last bias at the last stretch. -/
theorem bias1_at3 (c : Dev nD) : W3 m ρ c (Proc.devRef .tc main_arg3) = m ((c : Thread nD τ).loc main_arg3) :=
  (kept_at3 m ρ c main_arg3 (.inr (.inr (.inr (.inl rfl))))).trans
    ((kept_at2 m ρ c main_arg3 (.inr (.inr (.inr (.inl rfl))))).trans (arg_at1 m ρ c main_arg3 (.inr (.inr (.inl rfl)))))

theorem weights2_at3 (c : Dev nD) : W3 m ρ c (Proc.devRef .tc main_arg4) = m ((c : Thread nD τ).loc main_arg4) :=
  (kept_at3 m ρ c main_arg4 (.inr (.inr (.inr (.inr (.inl rfl)))))).trans
    ((kept_at2 m ρ c main_arg4 (.inr (.inr (.inr (.inr (.inl rfl)))))).trans (arg_at1 m ρ c main_arg4 (.inr (.inr (.inr (.inl rfl))))))

theorem bias2_at4 (c : Dev nD) : W4 m ρ c (Proc.devRef .tc main_arg5) = m ((c : Thread nD τ).loc main_arg5) :=
  (kept_at4 m ρ c main_arg5 (.inr (.inr (.inr rfl)))).trans
    ((kept_at3 m ρ c main_arg5 (.inr (.inr (.inr (.inr (.inr rfl)))))).trans
      ((kept_at2 m ρ c main_arg5 (.inr (.inr (.inr (.inr (.inr rfl)))))).trans (arg_at1 m ρ c main_arg5 (.inr (.inr (.inr (.inr rfl)))))))

end Cert.KernelIdeal.HostStretches

end
-- ==== Proof.KernelValue.lean ====
/-
  The idealized kernel's result as one function of its six arguments.

  `network` is the two-layer graph convolution written with the host steps and the two dense layers:
  message passing over the product of the features with the first weights; then the second dense layer (bias, clamp at
  zero, product with the second weights); then message passing again and the last bias. The buffers at the boundaries
  between the program's five stretches are read one after the other — the first region's output is the product, the
  second stretch propagates it, the second region's output is the dense part of the second layer, the third stretch
  propagates that and adds the bias — with the edge lists, the edge weights and the argument arrays unchanged throughout.
-/
import proofs.«130047_j15668040696096_1_alg».proof.Proof.WholeRun
import proofs.«130047_j15668040696096_1_alg».proof.Proof.DenseLayers
import proofs.«130047_j15668040696096_1_alg».proof.Proof.HostStretches

set_option maxRecDepth 16384

noncomputable section

namespace Cert.KernelIdeal.KernelValue

open Cert.KernelIdeal Cert.KernelIdeal.Gen Idealize.ShloMosaic Idealize.ShloMosaic.TcCoe Idealize.SL.Sem
open Cert.KernelIdeal.DenseLayers Cert.KernelIdeal.HostStretches

/-- The network's output from the node features, the edge array, and the two layers' weights and biases. -/
def network (x : FVec Ideal S100000x128 .f32) (e : IVec S2x1600000 32) (w1 : FVec Ideal S128x128 .f32) (b1 : FVec Ideal S128 .f32)
    (w2 : FVec Ideal S128x8 .f32) (b2 : FVec Ideal S8 .f32) : FVec Ideal S100000x8 .f32 :=
  propagate8 (F := Ideal) (sources (F := Ideal) e) (destinations (F := Ideal) e)
    (edgeWeights (F := Ideal) (sources (F := Ideal) e) (destinations (F := Ideal) e))
    (hidden (propagate128 (F := Ideal) (sources (F := Ideal) e) (destinations (F := Ideal) e)
        (edgeWeights (F := Ideal) (sources (F := Ideal) e) (destinations (F := Ideal) e)) (product x w1)) b1 w2) b2

variable (m : (ℓ : Loc nD τ sig) → Buf (Elt Ideal) ℓ) (ρ : Dev nD → PrngReg)

/-- The first region leaves the product of the features with the first weights in its output array. -/
theorem first_output (c : Dev nD) : W2 m ρ c (Proc.devRef .tc main_v29)
    = product (m ((c : Thread nD τ).loc main_arg0)) (m ((c : Thread nD τ).loc main_arg2)) := by
  have h := (W2_arr m ρ c 2).trans (first_layer (V1 m ρ) c)
  have e0 : V1 m ρ c main_arg0 = m ((c : Thread nD τ).loc main_arg0) := arg_at1 m ρ c main_arg0 (.inl rfl)
  have e2 : V1 m ρ c main_arg2 = m ((c : Thread nD τ).loc main_arg2) := arg_at1 m ρ c main_arg2 (.inr (.inl rfl))
  rw [e0, e2] at h
  exact h

/-- The second stretch propagates it along the edges. -/
theorem propagated (c : Dev nD) : W3 m ρ c (Proc.devRef .tc main_v42)
    = propagate128 (F := Ideal) (sources (F := Ideal) (m ((c : Thread nD τ).loc main_arg1))) (destinations (F := Ideal) (m ((c : Thread nD τ).loc main_arg1)))
        (edgeWeights (F := Ideal) (sources (F := Ideal) (m ((c : Thread nD τ).loc main_arg1))) (destinations (F := Ideal) (m ((c : Thread nD τ).loc main_arg1))))
        (product (m ((c : Thread nD τ).loc main_arg0)) (m ((c : Thread nD τ).loc main_arg2))) := by
  rw [propagated_at3, (sources_later m ρ c).1, (destinations_later m ρ c).1, (weights_later m ρ c).1, first_output]

/-- The second region leaves the dense part of the second layer of what it finds. -/
theorem second_output (c : Dev nD) : W4 m ρ c (Proc.devRef .tc main_v43)
    = hidden (propagate128 (F := Ideal) (sources (F := Ideal) (m ((c : Thread nD τ).loc main_arg1))) (destinations (F := Ideal) (m ((c : Thread nD τ).loc main_arg1)))
        (edgeWeights (F := Ideal) (sources (F := Ideal) (m ((c : Thread nD τ).loc main_arg1))) (destinations (F := Ideal) (m ((c : Thread nD τ).loc main_arg1))))
        (product (m ((c : Thread nD τ).loc main_arg0)) (m ((c : Thread nD τ).loc main_arg2))))
      (m ((c : Thread nD τ).loc main_arg3)) (m ((c : Thread nD τ).loc main_arg4)) := by
  have h := (W4_arr m ρ c 3).trans (second_layer (V3 m ρ) c)
  have e1 : V3 m ρ c main_v42 = _ := propagated m ρ c
  have e2 : V3 m ρ c main_arg3 = m ((c : Thread nD τ).loc main_arg3) := bias1_at3 m ρ c
  have e3 : V3 m ρ c main_arg4 = m ((c : Thread nD τ).loc main_arg4) := weights2_at3 m ρ c
  rw [e1, e2, e3] at h
  exact h

/-- The last boundary's contents at the result buffer are the network of the launch contents of the arguments. -/
theorem result_is_network (c : Dev nD) : W5 m ρ c (Proc.devRef .tc main_v59)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [result_at5, (sources_later m ρ c).2, (destinations_later m ρ c).2, (weights_later m ρ c).2, second_output, bias2_at4]
  rfl

/-- Every weakly fair execution of the idealized kernel terminates with the result buffer at the network of the
    arguments, and the arguments unchanged. -/
theorem run : θ_run defs (onTc (τ := τ) (main (F := Ideal))) ⟨m, fun _ => 0, ρ⟩ (fun r => ∀ c : Dev nD,
      r.2.mem ((c.tc : Thread nD τ).loc main_v59)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_is_network m ρ c), (h c).2⟩) (Cert.KernelIdeal.WholeRun.run_result m ρ)

end Cert.KernelIdeal.KernelValue

end
-- ==== Proof.ReferenceValue.lean ====
/-
  The idealized reference computes the same network.

  The reference is host operations only. Its run ends with the result at one long term of the arguments; that term is
  the kernel's `network` once its two dense products are read entry by entry: the first `dot_general` is the product
  of the features with the first weights, and the second, applied to max(· + bias row, 0), is the dense part of the
  second layer. Everything around them — edge lists, degrees, edge weights, gathers and scatter-adds — is the same
  operations on the same operands (the reference computes the edge weights once per layer, from the same edge array,
  so both copies are the one term).
-/
import proofs.«130047_j15668040696096_1_alg».proof.Proof.Gen.ReferenceIdeal.Read
import proofs.«130047_j15668040696096_1_alg».proof.Proof.KernelValue
import proofs.«130047_j15668040696096_1_alg».proof.Proof.LibPlainProduct

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The reference's first `dot_general` is the plain product. -/
theorem first_dense (x : FVec Ideal S100000x128 .f32) (w : FVec Ideal S128x128 .f32) :
    Host.dotGeneral dot_S100000x128_S128x128_S100000x128_1_0_0_1_n_n none x w = Cert.KernelIdeal.DenseLayers.product x w := by
  funext i
  obtain ⟨a, j, rfl⟩ : ∃ (a : Fin 100000) (j : Fin 128), i = ix2 a j := ⟨i 0, i 1, eq_ix2 i⟩
  exact PlainProduct.dotGeneral_apply dot_S100000x128_S128x128_S100000x128_1_0_0_1_n_n_wf none x w a j

/-- The reference's bias add, clamp at zero and second `dot_general` are the dense part of the second layer: the bias
    reaches entry `(r, k)` as `b(k)` through its two broadcasts, the clamp's zero through its one. -/
theorem second_dense (A : FVec Ideal S100000x128 .f32) (b : FVec Ideal S128 .f32) (w : FVec Ideal S128x8 .f32) :
    Host.dotGeneral dot_S100000x128_S128x8_S100000x8_1_0_0_1_n_n none
      (maximumf (addf A (broadcastInDim S100000x128 ![0, 1] bcast_S1x128_S100000x128_0_1 (broadcastInDim S1x128 ![1] bcast_S128_S1x128_1 b)))
        (broadcastInDim S100000x128 ![] bcast_S_S100000x128 (constant S_ .f32 0x00000000#32))) w
      = Cert.KernelIdeal.DenseLayers.hidden A b w := by
  funext i
  obtain ⟨a, j, rfl⟩ : ∃ (a : Fin 100000) (j : Fin 8), i = ix2 a j := ⟨i 0, i 1, eq_ix2 i⟩
  refine (PlainProduct.dotGeneral_apply dot_S100000x128_S128x8_S100000x8_1_0_0_1_n_n_wf none _ w a j).trans ?_
  unfold Cert.KernelIdeal.DenseLayers.hidden
  refine Finset.sum_congr rfl fun k _ => ?_
  refine congrArg (· * w (ix2 k j)) ?_
  show max (A (ix2 a k) + val_main_v44 (F := Ideal) b (ix2 a k)) (val_main_call0_v0 (F := Ideal) (ix2 a k))
    = max (A (ix2 a k) + b (ix1 k)) (Ideal.ofBits .f32 0x00000000#32)
  rw [val_main_v44_apply, val_main_v43_apply, val_main_call0_v0_apply]
  have hidx : idx_main_v43 (idx_main_v44 (ix2 a k)) = ix1 k := funext fun ax => Fin.ext (by match ax with | ⟨0, _⟩ => rfl)
  rw [hidx]
  rfl

/-- The reference's result term is the network of its arguments. -/
theorem reference_is_network (m : (ℓ : Loc nD τ sig) → Buf (Elt Ideal) ℓ) (c : Dev nD) :
    Cert.ReferenceIdeal.Value.res_main_v88 (F := Ideal) m c
      = Cert.KernelIdeal.KernelValue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v88
  rw [first_dense, second_dense]
  rfl

end Cert.ReferenceIdeal.RefValue

end
-- ==== Proof.lean ====
/-
  A two-layer graph convolution over 100000 nodes and 1600000 edges (plus a self-loop per node), 128 input features,
  128 hidden channels, 8 classes: the kernel runs the two dense layers as pipelined regions over ten row tiles and leaves
  the irregular steps (degrees, edge weights, gather, scale, scatter-add) to host operations; the reference is host
  operations throughout.

  Read at the extended reals, a change of float format is the identity, so each region's tile body is a plain matrix
  product (the second one after adding the bias row and clamping at zero), the ten tiles cover every row, and a
  region's output array is the host's `dot_general` of the same operands, entry by entry: Σ_k X(r, k) · W(k, j), the
  same sum on both sides, term for term, so no law of the extended reals beyond the definition of the products is
  used and the inputs' finiteness is never opened. All the other operations are literally the same on both sides.
  Hence both programs end with the result array at one function of the six arguments (`network`).

  The three frames: the two kernels' are the generated frame certificates; the reference's is its generated run with
  the result dropped. The idealization rewrote no operation, so `preserves` has nothing to state.
-/
import proofs.«130047_j15668040696096_1_alg».proof.Defs
import proofs.«130047_j15668040696096_1_alg».proof.Proof.Gen.Kernel
import proofs.«130047_j15668040696096_1_alg».proof.Proof.Gen.Kernel.Skeleton
import proofs.«130047_j15668040696096_1_alg».proof.Proof.Gen.Kernel.Launch
import proofs.«130047_j15668040696096_1_alg».proof.Proof.Gen.Kernel.Points
import proofs.«130047_j15668040696096_1_alg».proof.Proof.Gen.Kernel.Frame
import proofs.«130047_j15668040696096_1_alg».proof.Proof.Gen.KernelIdeal
import proofs.«130047_j15668040696096_1_alg».proof.Proof.Gen.KernelIdeal.Skeleton
import proofs.«130047_j15668040696096_1_alg».proof.Proof.Gen.KernelIdeal.Launch
import proofs.«130047_j15668040696096_1_alg».proof.Proof.Gen.KernelIdeal.Points
import proofs.«130047_j15668040696096_1_alg».proof.Proof.Gen.KernelIdeal.Frame
import proofs.«130047_j15668040696096_1_alg».proof.Proof.Gen.ReferenceIdeal
import proofs.«130047_j15668040696096_1_alg».proof.Proof.Gen.Pre_finite_inputs
import proofs.«130047_j15668040696096_1_alg».proof.Proof.Gen.ReferenceIdeal.Run
import proofs.«130047_j15668040696096_1_alg».proof.Proof.Gen.ReferenceIdeal.Read
import proofs.«130047_j15668040696096_1_alg».proof.Proof.KernelValue
import proofs.«130047_j15668040696096_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments both programs end with the result array at the network of those
    arguments: the kernel by its run read stretch by stretch, the reference by its run's term read at its two products. -/
theorem algebraic : Cert.algebraic_KernelIdeal_ReferenceIdeal := by
  intro m ρ m' ρ' _ hagree
  refine ⟨fun c => Cert.KernelIdeal.KernelValue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.reference_is_network, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
